-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x2048 .f32) (main_arg1 : FVec F S4096x2048 .f32) (main_arg2 : FVec F S4096 .f32) (main_arg3 : FVec F S4096 .f32) (main_arg4 : FVec F S4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8192x2048 : Shape := ⟨2, ![8192, 2048]⟩
abbrev S4096x2048 : Shape := ⟨2, ![4096, 2048]⟩
abbrev S4096 : Shape := ⟨1, ![4096]⟩
abbrev S1x4096 : Shape := ⟨2, ![1, 4096]⟩
abbrev S8192x4096 : Shape := ⟨2, ![8192, 4096]⟩
abbrev S128x2048 : Shape := ⟨2, ![128, 2048]⟩
abbrev S128x4096 : Shape := ⟨2, ![128, 4096]⟩
abbrev S128x32x128 : Shape := ⟨3, ![128, 32, 128]⟩
abbrev S128x32 : Shape := ⟨2, ![128, 32]⟩
abbrev S128x32x1 : Shape := ⟨3, ![128, 32, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x2048, .bf16⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S8192x4096, .f32⟩
  | .local _ .vmem, ⟨0, _⟩ => ⟨S128x2048, .f32⟩
  | .local _ .vmem, ⟨1, _⟩ => ⟨S128x2048, .f32⟩
  | .local _ .vmem, ⟨2, _⟩ => ⟨S4096x2048, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S4096_S1x4096 : S4096.ShapeCasts S1x4096
  inb_S128x2048_S128x2048_0_0 : ∀ a, (![0, 0] : Fin 2 → Nat) a + S128x2048.size a ≤ S128x2048.size a
  h_S128x2048 : 0 < S128x2048.numel
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S128x4096_S128x32x128 : S128x4096.ShapeCasts S128x32x128
  reduces_S128x32x128_S128x32 : S128x32x128.Reduces [2] S128x32
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  inb_S128x4096_S128x4096_0_0 : ∀ a, (![0, 0] : Fin 2 → Nat) a + S128x4096.size a ≤ S128x4096.size a
  h_S128x4096 : 0 < S128x4096.numel
  dot_S128x2048_S4096x2048_S128x4096_1_1_0_0_n_n_wf : DotDims.WF S128x2048 S4096x2048 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)

variable [Facts₀]

def dot_S128x2048_S4096x2048_S128x4096_1_1_0_0_n_n : DotDims S128x2048 S4096x2048 S128x4096 where
  lhsContracting := [1]
  rhsContracting := [1]
  lhsNonContracting := [0]
  rhsNonContracting := [0]
  lhsBatch := []
  rhsBatch := []
  wf := dot_S128x2048_S4096x2048_S128x4096_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S8192x4096 : Shape := ⟨2, ![8192, 4096]⟩
abbrev S1x4096 : Shape := ⟨2, ![1, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x32x128, .f32⟩
  | .hbm, ⟨10, _⟩ => ⟨S_, .f32⟩
  | .hbm, ⟨11, _⟩ => ⟨S8192x32, .f32⟩
  | .hbm, ⟨12, _⟩ => ⟨S8192x32x1, .f32⟩
  | .hbm, ⟨13, _⟩ => ⟨S_, .f32⟩
  | .hbm, ⟨14, _⟩ => ⟨S8192x32x1, .f32⟩
  | .hbm, ⟨15, _⟩ => ⟨S8192x32x1, .f32⟩
  | .hbm, ⟨16, _⟩ => ⟨S8192x32x128, .f32⟩
  | .hbm, ⟨17, _⟩ => ⟨S8192x32x128, .f32⟩
  | .hbm, ⟨18, _⟩ => ⟨S8192x32x128, .f32⟩
  | .hbm, ⟨19, _⟩ => ⟨S_, .f32⟩
  | .hbm, ⟨20, _⟩ => ⟨S8192x32, .f32⟩
  | .hbm, ⟨21, _⟩ => ⟨S8192x32x1, .f32⟩
  | .hbm, ⟨22, _⟩ => ⟨S_, .f32⟩
  | .hbm, ⟨23, _⟩ => ⟨S8192x32x1, .f32⟩
  | .hbm, ⟨24, _⟩ => ⟨S8192x32x1, .f32⟩
  | .hbm, ⟨25, _⟩ => ⟨S8192x32x128, .f32⟩
  | .hbm, ⟨26, _⟩ => ⟨S8192x32x128, .f32⟩
  | .hbm, ⟨27, _⟩ => ⟨S_, .f32⟩
  | .hbm, ⟨28, _⟩ => ⟨S8192x32x1, .f32⟩
  | .hbm, ⟨29, _⟩ => ⟨S8192x32x1, .f32⟩
  | .hbm, ⟨30, _⟩ => ⟨S8192x32x1, .f32⟩
  | .hbm, ⟨31, _⟩ => ⟨S8192x32x128, .f32⟩
  | .hbm, ⟨32, _⟩ => ⟨S8192x32x128, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .i1⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  shapeCasts_S8192x32x128_S8192x4096 : S8192x32x128.ShapeCasts S8192x4096
  bcast_S_S8192x4096 : S_.BroadcastsInDim S8192x4096 (![] : Fin 0 → Fin S8192x4096.rank)
  dot_S8192x2048_S4096x2048_S8192x4096_1_1_0_0_n_n_wf : DotDims.WF S8192x2048 S4096x2048 S8192x4096 [1] [1] [0] [0] [] []

variable [Facts₀]

def dot_S8192x2048_S4096x2048_S8192x4096_1_1_0_0_n_n : DotDims S8192x2048 S4096x2048 S8192x4096 where
  lhsContracting := [1]
  rhsContracting := [1]
  lhsNonContracting := [0]
  rhsNonContracting := [0]
  lhsBatch := []
  rhsBatch := []
  wf := dot_S8192x2048_S4096x2048_S8192x4096_1_1_0_0_n_n_wf

class Facts : Prop extends Facts₀ where

variable [Facts]
-- ==== Proof.Spec.lean ====
/-
  The layer both programs compute, as one function of the argument arrays at the extended reals.

  A row of pre-activations h(c) = Σₖ x(r, k) · W(c, k) + b(c), c < 4096, is cut into 32 groups of 128 consecutive
  columns. Within a group the mean μ = (Σₗ h) / 128 is subtracted, the variance σ² = (Σₗ (h − μ)²) / 128 is taken of
  the centred values, and each centred value is multiplied by (σ² + ε)^(-1/2). The result is scaled and shifted
  column by column, passed through the leaky rectifier y ↦ (y if y > 0 else slope · y), and doubled by adding it to
  itself. The three float literals (128, ε, the slope) are kept as their bit patterns: both programs carry the same
  words, so they are never evaluated.
-/
import Idealize.ShloMosaic.PureOps.Ideal
import Idealize.ShloMosaic.Lib.ValueIdx

noncomputable section

namespace Cert.GroupNormLayer

open Idealize.ShloMosaic Idealize.ShloMosaic.ValueIdx

/-- The group size as both programs write it: the f32 word of 128. -/
def lanes : EReal := Ideal.ofBits .f32 0x43000000#32
/-- The variance's regulariser: the f32 word nearest 1e-5. -/
def eps : EReal := Ideal.ofBits .f32 0x3727C5AC#32
/-- The rectifier's negative slope: the f32 word nearest 0.01. -/
def slope : EReal := Ideal.ofBits .f32 0x3C23D70A#32

/-- The mean of a group. -/
def mean (H : Fin 128 → EReal) : EReal := Ideal.div (∑ l : Fin 128, H l) lanes
/-- A group's value less the group's mean. -/
def centred (H : Fin 128 → EReal) (l : Fin 128) : EReal := H l - mean H
/-- The mean of the squared centred values. -/
def variance (H : Fin 128 → EReal) : EReal := Ideal.div (∑ l : Fin 128, centred H l * centred H l) lanes
/-- The centred value over the regularised standard deviation. -/
def normed (H : Fin 128 → EReal) (l : Fin 128) : EReal := centred H l * Ideal.rsqrt (variance H + eps)
/-- The leaky rectifier, added to itself. -/
def leakyTwice (y : EReal) : EReal :=
  Scalar.select (Ideal.cmp .ogt y (Ideal.ofBits .f32 0x00000000#32)) y (y * slope)
    + Scalar.select (Ideal.cmp .ogt y (Ideal.ofBits .f32 0x00000000#32)) y (y * slope)

/-- The group a column lies in, -/
def grp (q : Fin 4096) : Fin 32 := ⟨q.val / 128, by have := q.isLt; omega⟩
/-- its place inside the group, -/
def lane (q : Fin 4096) : Fin 128 := ⟨q.val % 128, by omega⟩
/-- and the column at a place of a group. -/
def col (g : Fin 32) (l : Fin 128) : Fin 4096 := ⟨g.val * 128 + l.val, by have := g.isLt; have := l.isLt; omega⟩

theorem col_val (g : Fin 32) (l : Fin 128) : (col g l).val = g.val * 128 + l.val := rfl

theorem val_eq_grp_lane (q : Fin 4096) : q.val = (grp q).val * 128 + (lane q).val := by
  show q.val = q.val / 128 * 128 + q.val % 128
  omega

/-- One row of the linear map: entry c of x(r, ·) · Wᵀ + b. -/
def lin {A : ℕ} (x : (⟨2, ![A, 2048]⟩ : Shape).Idx → EReal) (W : (⟨2, ![4096, 2048]⟩ : Shape).Idx → EReal)
    (b : Fin 4096 → EReal) (r : Fin A) (c : Fin 4096) : EReal :=
  (∑ k : Fin 2048, x (ix2 r k) * W (ix2 c k)) + b c

/-- One row of the output from the row of pre-activations and the per-column scale and shift. -/
def rowOut (h gw gb : Fin 4096 → EReal) (q : Fin 4096) : EReal :=
  leakyTwice (normed (fun l => h (col (grp q) l)) (lane q) * gw q + gb q)

/-- Entry (r, q) of the layer. -/
def layer {A : ℕ} (x : (⟨2, ![A, 2048]⟩ : Shape).Idx → EReal) (W : (⟨2, ![4096, 2048]⟩ : Shape).Idx → EReal)
    (b gw gb : (⟨1, ![4096]⟩ : Shape).Idx → EReal) (r : Fin A) (q : Fin 4096) : EReal :=
  rowOut (lin x W (fun c => b (ix1 c)) r) (fun c => gw (ix1 c)) (fun c => gb (ix1 c)) q

/-- The whole result array: the layer at every entry. -/
def result (x : (⟨2, ![8192, 2048]⟩ : Shape).Idx → EReal) (W : (⟨2, ![4096, 2048]⟩ : Shape).Idx → EReal)
    (b gw gb : (⟨1, ![4096]⟩ : Shape).Idx → EReal) : (⟨2, ![8192, 4096]⟩ : Shape).Idx → EReal :=
  fun i => layer x W b gw gb (i 0) (i 1)

theorem result_apply (x : (⟨2, ![8192, 2048]⟩ : Shape).Idx → EReal) (W : (⟨2, ![4096, 2048]⟩ : Shape).Idx → EReal)
    (b gw gb : (⟨1, ![4096]⟩ : Shape).Idx → EReal) (r : Fin 8192) (q : Fin 4096) :
    result x W b gw gb (ix2 r q) = layer x W b gw gb r q := rfl

end Cert.GroupNormLayer

end
-- ==== Proof.LibGroupedLanes.lean ====
/-
  A matrix whose columns come in equal groups: an [a, n] array with n = b · c read as [a, b, c] — row p, group g,
  lane l sits at column g · c + l — and the operations a per-group statistic is built from, each read at an index
  given by coordinates:
  • the cast [a, n] → [a, b, c] and the cast back (`split_apply`, `merge_apply`);
  • the sum over the lanes of each group at the extended reals (`lanesum_apply`);
  • a per-group value [a, b] kept with a unit lane axis, [a, b, 1] (`keep_apply`), and spread back over the lanes,
    [a, b, 1] → [a, b, c] (`spread_apply`).
  Everything is stated for arbitrary extents.
-/
import Idealize.ShloMosaic.Lib.Pipeline.Value
import Idealize.ShloMosaic.Lib.ValueIdx
import Idealize.ShloMosaic.PureOps.Ideal.Laws

namespace Cert.Lib.GroupedLanes

open Idealize.ShloMosaic Idealize.ShloMosaic.ValueIdx

variable {α : Type} {a b c n : ℕ}

/-- An [a, n] array cast to [a, b, c] reads, at (p, g, l), the operand at (p, q) where q = g · c + l. -/
theorem split_apply (x : (⟨2, ![a, n]⟩ : Shape).Idx → α) (h : (⟨2, ![a, n]⟩ : Shape).ShapeCasts ⟨3, ![a, b, c]⟩)
    (hn : n = b * c) (p : Fin a) (g : Fin b) (l : Fin c) (q : Fin n) (hq : q.val = g.val * c + l.val) :
    shapeCast ⟨3, ![a, b, c]⟩ x h (ix3 p g l) = x (ix2 p q) :=
  shapeCast_apply x h _ _ (by
    rw [Shape.rowMajor_val_two, Shape.rowMajor_val_three]
    show p.val * n + q.val = (p.val * b + g.val) * c + l.val
    rw [hq, hn]; ring)

/-- An [a, b, c] array cast to [a, n] reads, at (p, q) with q = g · c + l, the operand at (p, g, l). -/
theorem merge_apply (x : (⟨3, ![a, b, c]⟩ : Shape).Idx → α) (h : (⟨3, ![a, b, c]⟩ : Shape).ShapeCasts ⟨2, ![a, n]⟩)
    (hn : n = b * c) (p : Fin a) (q : Fin n) (g : Fin b) (l : Fin c) (hq : q.val = g.val * c + l.val) :
    shapeCast ⟨2, ![a, n]⟩ x h (ix2 p q) = x (ix3 p g l) :=
  shapeCast_apply x h _ _ (by
    rw [Shape.rowMajor_val_two, Shape.rowMajor_val_three]
    show (p.val * b + g.val) * c + l.val = p.val * n + q.val
    rw [hq, hn]; ring)

/-- An [a, b] array cast to [a, b, 1] reads, at (p, g, u), the operand at (p, g), whatever the unit coordinate. -/
theorem keep_apply (x : (⟨2, ![a, b]⟩ : Shape).Idx → α) (h : (⟨2, ![a, b]⟩ : Shape).ShapeCasts ⟨3, ![a, b, 1]⟩)
    (p : Fin a) (g : Fin b) (u : Fin 1) : shapeCast ⟨3, ![a, b, 1]⟩ x h (ix3 p g u) = x (ix2 p g) :=
  shapeCast_apply x h _ _ (by
    have hu : u.val = 0 := by omega
    rw [Shape.rowMajor_val_two, Shape.rowMajor_val_three]
    show p.val * b + g.val = (p.val * b + g.val) * 1 + u.val
    rw [hu, Nat.mul_one, Nat.add_zero])

/-- An [a, b, 1] array broadcast to [a, b, c] reads, at (p, g, l), the operand at (p, g, 0). -/
theorem spread_apply (x : (⟨3, ![a, b, 1]⟩ : Shape).Idx → α) (h : (⟨3, ![a, b, 1]⟩ : Shape).Broadcasts ⟨3, ![a, b, c]⟩)
    (p : Fin a) (g : Fin b) (l : Fin c) :
    broadcastTo ⟨3, ![a, b, c]⟩ x h (ix3 p g l) = x (ix3 p g (0 : Fin 1)) := by
  refine broadcastTo_apply x h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- The sum over the lanes: a `vector.multi_reduction <add>` over the last axis of an [a, b, c] array of extended
    reals reads, at (p, g), the sum over l of the operand at (p, g, l). (The accumulator's side condition is typed as a
    printed program's own proof of it is: the zero word equals itself.) -/
theorem lanesum_apply (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (g : Fin b) :
    multiReduction .add [2] ⟨2, ![a, b]⟩ src 0x00000000#32 h hφ hacc (ix2 p g) = ∑ l : Fin c, src (ix3 p g l) := by
  refine (Ideal.multiReduction_add_single src 0x00000000#32 h hφ hacc (ix2 p g)).trans ?_
  refine Finset.sum_congr rfl fun l _ => congrArg src ?_
  funext ax
  match ax with
  | ⟨0, _⟩ => rfl
  | ⟨1, _⟩ => rfl
  | ⟨2, _⟩ => rfl

end Cert.Lib.GroupedLanes
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.KernelLayer.lean ====
/-
  What the kernel body computes for one block of 128 rows, entry by entry, at the extended reals.

  The body's arithmetic is one term over the five loaded blocks (the x block, the whole weight matrix, and the three
  [1, 4096] rows). It is cut here into its natural stages — the pre-activations A · Bᵀ + bias; the view of a row as
  32 groups of 128 lanes; a group's mean; the centred values; the variance; the normalised values; the view undone;
  scale, shift, leaky rectifier and doubling — each stage a definition with the body's own operations, and each
  read at an index given by coordinates. Composed, entry (p, q) of the block is `rowOut` of the block's row p of
  pre-activations: the layer of Spec.lean.
-/
import proofs.«121388_j3556232921930_2_alg».proof.Proof.Gen.KernelIdeal.Skeleton
import proofs.«121388_j3556232921930_2_alg».proof.Proof.Spec
import proofs.«121388_j3556232921930_2_alg».proof.Proof.LibGroupedLanes
import proofs.«121388_j3556232921930_2_alg».proof.Proof.LibRowsDot
import Idealize.ShloMosaic.Lib.ValueLayout

noncomputable section

namespace Cert.KernelIdeal.Layer

open Cert.KernelIdeal Cert.KernelIdeal.Gen Idealize.ShloMosaic Idealize.ShloMosaic.ValueIdx
open Cert.GroupNormLayer Cert.Lib

/-! ## The pre-activations -/

/-- The block's pre-activations: x · Wᵀ accumulated into zero, plus the bias row over every row. -/
def pre (x0 : FVec Ideal S128x2048 .f32) (w : FVec Ideal S4096x2048 .bf16) (bb : FVec Ideal S1x4096 .f32) :
    FVec Ideal S128x4096 .f32 :=
  addf (matmul dot_S128x2048_S4096x2048_S128x4096_1_1_0_0_n_n none (truncf .bf16 x0 bitsLt_bf16_f32)
      (shapeCast S4096x2048 w shapeCasts_S4096x2048_S4096x2048) (constant S128x4096 .f32 0x00000000#32))
    (broadcastTo S128x4096 (shapeCast S1x4096 bb shapeCasts_S1x4096_S1x4096) broadcasts_S1x4096_S128x4096)

/-- Entry (p, q): the row of x against row q of W, plus the bias at q. -/
theorem pre_apply (x0 : FVec Ideal S128x2048 .f32) (w : FVec Ideal S4096x2048 .bf16) (bb : FVec Ideal S1x4096 .f32)
    (p : Fin 128) (q : Fin 4096) :
    pre x0 w bb (ix2 p q) = (∑ k : Fin 2048, x0 (ix2 p k) * w (ix2 q k)) + bb (ix2 (0 : Fin 1) q) := by
  unfold pre
  have hd : dot_S128x2048_S4096x2048_S128x4096_1_1_0_0_n_n = DotDims.transposedRhs 128 2048 4096 := rfl
  rw [addf_apply, broadcastTo_1b_ab_apply, shapeCast_self, shapeCast_self, hd, RowsDot.matmul_zero_apply]
  rfl

/-! ## Groups of lanes -/

/-- A row's 4096 columns seen as 32 groups of 128 lanes. -/
def grouped (v8 : FVec Ideal S128x4096 .f32) : FVec Ideal S128x32x128 .f32 :=
  shapeCast S128x32x128 v8 shapeCasts_S128x4096_S128x32x128

theorem grouped_apply (v8 : FVec Ideal S128x4096 .f32) (p : Fin 128) (g : Fin 32) (l : Fin 128) :
    grouped v8 (ix3 p g l) = v8 (ix2 p (col g l)) :=
  GroupedLanes.split_apply v8 shapeCasts_S128x4096_S128x32x128 rfl p g l (col g l) rfl

/-- The per-group mean, kept with a unit lane axis. -/
def kmean (v9 : FVec Ideal S128x32x128 .f32) : FVec Ideal S128x32x1 .f32 :=
  divf (shapeCast S128x32x1 (multiReduction .add [2] S128x32 v9 0x00000000#32 reduces_S128x32x128_S128x32 (.inl rfl) rfl)
      shapeCasts_S128x32_S128x32x1)
    (broadcast S128x32x1 (Scalar.ofBits .f32 0x43000000#32))

theorem kmean_apply (v9 : FVec Ideal S128x32x128 .f32) (p : Fin 128) (g : Fin 32) (u : Fin 1) :
    kmean v9 (ix3 p g u) = mean (fun l => v9 (ix3 p g l)) := by
  unfold kmean
  rw [divf_apply, GroupedLanes.keep_apply, GroupedLanes.lanesum_apply]
  rfl

/-- The values less their group's mean. -/
def kcentred (v9 : FVec Ideal S128x32x128 .f32) : FVec Ideal S128x32x128 .f32 :=
  subf v9 (broadcastTo S128x32x128 (kmean v9) broadcasts_S128x32x1_S128x32x128)

theorem kcentred_apply (v9 : FVec Ideal S128x32x128 .f32) (p : Fin 128) (g : Fin 32) (l : Fin 128) :
    kcentred v9 (ix3 p g l) = centred (fun l => v9 (ix3 p g l)) l := by
  unfold kcentred
  rw [subf_apply, GroupedLanes.spread_apply, kmean_apply]
  rfl

/-- The per-group mean of the squares of centred values. -/
def kvar (v15 : FVec Ideal S128x32x128 .f32) : FVec Ideal S128x32x1 .f32 :=
  divf (shapeCast S128x32x1
      (multiReduction .add [2] S128x32 (mulf v15 v15) 0x00000000#32 reduces_S128x32x128_S128x32 (.inl rfl) rfl)
      shapeCasts_S128x32_S128x32x1)
    (broadcast S128x32x1 (Scalar.ofBits .f32 0x43000000#32))

theorem kvar_apply (v15 : FVec Ideal S128x32x128 .f32) (p : Fin 128) (g : Fin 32) (u : Fin 1) :
    kvar v15 (ix3 p g u) = Ideal.div (∑ l : Fin 128, v15 (ix3 p g l) * v15 (ix3 p g l)) lanes := by
  unfold kvar
  rw [divf_apply, GroupedLanes.keep_apply, GroupedLanes.lanesum_apply]
  rfl

/-- The centred values over the regularised standard deviation of their group. -/
def knormed (v15 : FVec Ideal S128x32x128 .f32) : FVec Ideal S128x32x128 .f32 :=
  mulf v15 (broadcastTo S128x32x128
    (rsqrt (addf (kvar v15) (broadcast S128x32x1 (Scalar.ofBits .f32 0x3727C5AC#32))))
    broadcasts_S128x32x1_S128x32x128)

theorem knormed_apply (v15 : FVec Ideal S128x32x128 .f32) (p : Fin 128) (g : Fin 32) (l : Fin 128) :
    knormed v15 (ix3 p g l)
      = v15 (ix3 p g l) * Ideal.rsqrt (Ideal.div (∑ l : Fin 128, v15 (ix3 p g l) * v15 (ix3 p g l)) lanes + eps) := by
  unfold knormed
  rw [mulf_apply, GroupedLanes.spread_apply]
  show _ * Ideal.rsqrt (kvar v15 (ix3 p g (0 : Fin 1)) + eps) = _
  rw [kvar_apply]

/-- Centring, then normalising, is the specification's `normed` of the group. -/
theorem knormed_kcentred (v9 : FVec Ideal S128x32x128 .f32) (p : Fin 128) (g : Fin 32) (l : Fin 128) :
    knormed (kcentred v9) (ix3 p g l) = normed (fun l => v9 (ix3 p g l)) l := by
  rw [knormed_apply]
  simp only [kcentred_apply]
  rfl

/-! ## The groups undone, scale and shift, the rectifier -/

/-- The normalised block as [128, 4096] again. -/
def flat (v25 : FVec Ideal S128x32x128 .f32) : FVec Ideal S128x4096 .f32 :=
  shapeCast S128x4096 v25 shapeCasts_S128x32x128_S128x4096

theorem flat_apply (v25 : FVec Ideal S128x32x128 .f32) (p : Fin 128) (q : Fin 4096) :
    flat v25 (ix2 p q) = v25 (ix3 p (grp q) (lane q)) :=
  GroupedLanes.merge_apply v25 shapeCasts_S128x32x128_S128x4096 rfl p q (grp q) (lane q) (val_eq_grp_lane q)

/-- Column-wise scale and shift, each a [1, 4096] row over every row of the block. -/
def scaled (v26 : FVec Ideal S128x4096 .f32) (g4 g5 : FVec Ideal S1x4096 .f32) : FVec Ideal S128x4096 .f32 :=
  addf (mulf v26 (broadcastTo S128x4096 (shapeCast S1x4096 g4 shapeCasts_S1x4096_S1x4096) broadcasts_S1x4096_S128x4096))
    (broadcastTo S128x4096 (shapeCast S1x4096 g5 shapeCasts_S1x4096_S1x4096) broadcasts_S1x4096_S128x4096)

theorem scaled_apply (v26 : FVec Ideal S128x4096 .f32) (g4 g5 : FVec Ideal S1x4096 .f32) (p : Fin 128) (q : Fin 4096) :
    scaled v26 g4 g5 (ix2 p q) = v26 (ix2 p q) * g4 (ix2 (0 : Fin 1) q) + g5 (ix2 (0 : Fin 1) q) := by
  unfold scaled
  rw [addf_apply, mulf_apply, broadcastTo_1b_ab_apply, broadcastTo_1b_ab_apply, shapeCast_self, shapeCast_self]

/-- The leaky rectifier, doubled. -/
def leaky (v34 : FVec Ideal S128x4096 .f32) : FVec Ideal S128x4096 .f32 :=
  have v39 : FVec Ideal S128x4096 .f32 :=
    select (cmpf .ogt v34 (broadcast S128x4096 (Scalar.ofBits .f32 0x00000000#32))) v34
      (mulf v34 (broadcast S128x4096 (Scalar.ofBits .f32 0x3C23D70A#32)))
  addf v39 v39

theorem leaky_apply (v34 : FVec Ideal S128x4096 .f32) (i : S128x4096.Idx) : leaky v34 i = leakyTwice (v34 i) := rfl

/-! ## The body's term is the composition of the stages -/

theorem pay_eq (x0 : Vec Ideal S128x2048 .f32) (w : Vec Ideal S4096x2048 .bf16) (bb g4 g5 : Vec Ideal S1x4096 .f32) :
    k0_pay1 (F := Ideal) x0 w bb g4 g5 = leaky (scaled (flat (knormed (kcentred (grouped (pre x0 w bb))))) g4 g5) := rfl

/-- Entry (p, q) of what the body stores is the layer's row output at q, of the block's row p of pre-activations. -/
theorem pay_apply (x0 : Vec Ideal S128x2048 .f32) (w : Vec Ideal S4096x2048 .bf16) (bb g4 g5 : Vec Ideal S1x4096 .f32)
    (p : Fin 128) (q : Fin 4096) :
    k0_pay1 (F := Ideal) x0 w bb g4 g5 (ix2 p q)
      = rowOut (fun c => (∑ k : Fin 2048, x0 (ix2 p k) * w (ix2 c k)) + bb (ix2 (0 : Fin 1) c))
          (fun c => g4 (ix2 (0 : Fin 1) c)) (fun c => g5 (ix2 (0 : Fin 1) c)) q := by
  rw [pay_eq, leaky_apply, scaled_apply, flat_apply, knormed_kcentred]
  simp only [grouped_apply, pre_apply]
  rfl

end Cert.KernelIdeal.Layer

end
-- ==== Proof.Blocks.lean ====
/-
  From the kernel's blocks to its result array.

  The grid has 64 points; point t stages rows 128·t … 128·t + 127 of x (all 2048 columns), the whole weight matrix
  (already rounded to bf16 by the host, which at the extended reals changes nothing), and the bias, scale and shift
  vectors viewed as [1, 4096] rows, and writes back rows 128·t … 128·t + 127 of the result. So entry (p, q) of what point t
  writes is the layer at row 128·t + p, column q, of the argument arrays; the 64 row bands tile the [8192, 4096] result;
  hence the result array after the run is the layer at every entry.
-/
import proofs.«121388_j3556232921930_2_alg».proof.Proof.Gen.KernelIdeal.Value
import proofs.«121388_j3556232921930_2_alg».proof.Proof.KernelLayer
import Idealize.ShloMosaic.Lib.StableHlo.Run
import Idealize.ShloMosaic.Lib.ValueLayout

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.StableHlo Idealize.ShloMosaic.ValueIdx
open Idealize.ShloMosaic.Pipeline (Dat)
open Cert.GroupNormLayer

variable (m : (ℓ : Loc nD τ sig) → Buf (Elt Ideal) ℓ) (ρ : Dev nD → PrngReg)

/-! ## The arrays the host wrote before the region -/

/-- The weight matrix as the region finds it: the argument with its format changed, which at the extended reals is the
    argument. -/
theorem V_weights (c : Dev nD) :
    (V m c main_v0 : S4096x2048.Idx → EReal) = (m ((c : Thread nD τ).loc main_arg1) : S4096x2048.Idx → EReal) := by
  dsimp only [V, hostOps0]; after_results; rfl

/-- The bias as the region finds it: the argument vector as one row. -/
theorem V_bias (c : Dev nD) :
    (V m c main_v1 : S1x4096.Idx → EReal)
      = shapeCast S1x4096 (m ((c : Thread nD τ).loc main_arg2) : S4096.Idx → EReal) shapeCasts_S4096_S1x4096 := by
  dsimp only [V, hostOps0]; after_results; rfl

/-- The scale likewise, -/
theorem V_scale (c : Dev nD) :
    (V m c main_v2 : S1x4096.Idx → EReal)
      = shapeCast S1x4096 (m ((c : Thread nD τ).loc main_arg3) : S4096.Idx → EReal) shapeCasts_S4096_S1x4096 := by
  dsimp only [V, hostOps0]; after_results; rfl

/-- and the shift. -/
theorem V_shift (c : Dev nD) :
    (V m c main_v3 : S1x4096.Idx → EReal)
      = shapeCast S1x4096 (m ((c : Thread nD τ).loc main_arg4) : S4096.Idx → EReal) shapeCasts_S4096_S1x4096 := by
  dsimp only [V, hostOps0]; after_results; rfl

/-! ## Where each window's block sits -/

/-- The index maps over the 64 grid points: the x window and the result window move one block of rows per point; the
    other four stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 64 := N_0 ▸ t.isLt

/-- Row p of point t's band, as a row of the whole arrays. -/
def row (t : Fin cfg0.N) (p : Fin 128) : Fin 8192 :=
  ⟨t.val * 128 + p.val, by have := point_lt t; have := p.isLt; omega⟩

/-- Entry (p, k) of point t's x block is x at row 128·t + p. -/
theorem x_block (c : Dev nD) (t : Fin cfg0.N) (p : Fin 128) (k : Fin 2048) :
    iblk m c 0 t (ix2 p k) = m ((c : Thread nD τ).loc main_arg0) (ix2 (row t p) k) := by
  show V m c main_arg0 (((cfg0.win 0).blk t).view.emb (ix2 p k)) = _
  rw [V_main_arg0]
  refine congrArg _ ?_
  obtain ⟨e0, e1, -⟩ := idx_facts t
  funext a; apply Fin.ext
  match a with
  | ⟨0, _⟩ => show win0_0.index t (0 : Fin 2) * 128 + 1 * p.val = t.val * 128 + p.val; rw [e0]; omega
  | ⟨1, _⟩ => show win0_0.index t (1 : Fin 2) * 2048 + 1 * k.val = k.val; rw [e1]; omega

/-- The weight block is the whole weight matrix. -/
theorem w_block (c : Dev nD) (t : Fin cfg0.N) (q : Fin 4096) (k : Fin 2048) :
    iblk m c 1 t (ix2 q k) = m ((c : Thread nD τ).loc main_arg1) (ix2 q k) := by
  show (V m c main_v0 : S4096x2048.Idx → EReal) (((cfg0.win 1).blk t).view.emb (ix2 q k)) = _
  rw [V_weights]
  refine congrArg _ ?_
  obtain ⟨-, -, e0, e1, -⟩ := idx_facts t
  funext a; apply Fin.ext
  match a with
  | ⟨0, _⟩ => show win0_1.index t (0 : Fin 2) * 4096 + 1 * q.val = q.val; rw [e0]; omega
  | ⟨1, _⟩ => show win0_1.index t (1 : Fin 2) * 2048 + 1 * k.val = k.val; rw [e1]; omega

/-- The bias block's one row is the bias vector. -/
theorem b_block (c : Dev nD) (t : Fin cfg0.N) (q : Fin 4096) :
    iblk m c 2 t (ix2 (0 : Fin 1) q) = m ((c : Thread nD τ).loc main_arg2) (ix1 q) := by
  show (V m c main_v1 : S1x4096.Idx → EReal) (((cfg0.win 2).blk t).view.emb (ix2 (0 : Fin 1) q)) = _
  rw [V_bias]
  obtain ⟨-, -, -, -, e0, e1, -⟩ := idx_facts t
  have he : ((cfg0.win 2).blk t).view.emb (ix2 (0 : Fin 1) q) = ix2 (0 : Fin 1) q := by
    funext a; apply Fin.ext
    match a with
    | ⟨0, _⟩ => show win0_2.index t (0 : Fin 2) * 1 + 1 * 0 = 0; rw [e0]
    | ⟨1, _⟩ => show win0_2.index t (1 : Fin 2) * 4096 + 1 * q.val = q.val; rw [e1]; omega
  rw [he, shapeCast_a_1a_apply]

/-- The scale block's one row is the scale vector. -/
theorem gw_block (c : Dev nD) (t : Fin cfg0.N) (q : Fin 4096) :
    iblk m c 3 t (ix2 (0 : Fin 1) q) = m ((c : Thread nD τ).loc main_arg3) (ix1 q) := by
  show (V m c main_v2 : S1x4096.Idx → EReal) (((cfg0.win 3).blk t).view.emb (ix2 (0 : Fin 1) q)) = _
  rw [V_scale]
  obtain ⟨-, -, -, -, -, -, e0, e1, -⟩ := idx_facts t
  have he : ((cfg0.win 3).blk t).view.emb (ix2 (0 : Fin 1) q) = ix2 (0 : Fin 1) q := by
    funext a; apply Fin.ext
    match a with
    | ⟨0, _⟩ => show win0_3.index t (0 : Fin 2) * 1 + 1 * 0 = 0; rw [e0]
    | ⟨1, _⟩ => show win0_3.index t (1 : Fin 2) * 4096 + 1 * q.val = q.val; rw [e1]; omega
  rw [he, shapeCast_a_1a_apply]

/-- The shift block's one row is the shift vector. -/
theorem gb_block (c : Dev nD) (t : Fin cfg0.N) (q : Fin 4096) :
    iblk m c 4 t (ix2 (0 : Fin 1) q) = m ((c : Thread nD τ).loc main_arg4) (ix1 q) := by
  show (V m c main_v3 : S1x4096.Idx → EReal) (((cfg0.win 4).blk t).view.emb (ix2 (0 : Fin 1) q)) = _
  rw [V_shift]
  obtain ⟨-, -, -, -, -, -, -, -, e0, e1, -⟩ := idx_facts t
  have he : ((cfg0.win 4).blk t).view.emb (ix2 (0 : Fin 1) q) = ix2 (0 : Fin 1) q := by
    funext a; apply Fin.ext
    match a with
    | ⟨0, _⟩ => show win0_4.index t (0 : Fin 2) * 1 + 1 * 0 = 0; rw [e0]
    | ⟨1, _⟩ => show win0_4.index t (1 : Fin 2) * 4096 + 1 * q.val = q.val; rw [e1]; omega
  rw [he, shapeCast_a_1a_apply]

/-- Entry (p, q) of point t's result block sits at row 128·t + p, column q of the result. -/
theorem out_emb (t : Fin cfg0.N) (p : Fin 128) (q : Fin 4096) :
    ((cfg0.win 5).blk t).view.emb (ix2 p q) = ix2 (row t p) q := by
  obtain ⟨-, -, -, -, -, -, -, -, -, -, e0, e1⟩ := idx_facts t
  funext a; apply Fin.ext
  match a with
  | ⟨0, _⟩ => show win0_5.index t (0 : Fin 2) * 128 + 1 * p.val = t.val * 128 + p.val; rw [e0]; omega
  | ⟨1, _⟩ => show win0_5.index t (1 : Fin 2) * 4096 + 1 * q.val = q.val; rw [e1]; omega

/-! ## What a point writes, and the whole array -/

theorem hz : (![0, 0] : Fin 2 → Nat) = fun _ => 0 := funext fun a => by fin_cases a <;> rfl

/-- Entry (p, q) of what the body leaves at point t is the layer at row 128·t + p, column q. -/
theorem body_entry (c : Dev nD) (t : Fin cfg0.N) (p : Fin 128) (q : Fin 4096) :
    k0_pay1 (F := Ideal) (iblk m c 0 t) (iblk m c 1 t) (iblk m c 2 t) (iblk m c 3 t) (iblk m c 4 t) (ix2 p q)
      = layer (m ((c : Thread nD τ).loc main_arg0)) (m ((c : Thread nD τ).loc main_arg1))
          (m ((c : Thread nD τ).loc main_arg2)) (m ((c : Thread nD τ).loc main_arg3))
          (m ((c : Thread nD τ).loc main_arg4)) (row t p) q := by
  refine (Layer.pay_apply (iblk m c 0 t) (iblk m c 1 t) (iblk m c 2 t) (iblk m c 3 t) (iblk m c 4 t) p q).trans ?_
  simp only [x_block, w_block, b_block, gw_block, gb_block]
  rfl

/-- What point t writes back is block t of the layer of the argument arrays. -/
theorem flushed_eq (c : Dev nD) (t : Fin cfg0.N) :
    (dats m 0 c).flushed 5 t = ((cfg0.win 5).blk t).view.read (Elt Ideal)
      (result (m ((c : Thread nD τ).loc main_arg0)) (m ((c : Thread nD τ).loc main_arg1))
        (m ((c : Thread nD τ).loc main_arg2)) (m ((c : Thread nD τ).loc main_arg3))
        (m ((c : Thread nD τ).loc main_arg4))) := by
  rw [Value.flushed5]
  unfold out0_5
  rw [View.canon_unit_zero hz]
  simp only [View.ld_unit_zero (S := S128x2048) hz, View.ld_unit_zero (S := S4096x2048) hz,
    View.ld_unit_zero (S := S1x4096) hz]
  have key : ∀ j : S128x4096.Idx,
      k0_pay1 (F := Ideal) (iblk m c 0 t) (iblk m c 1 t) (iblk m c 2 t) (iblk m c 3 t) (iblk m c 4 t) j
        = result (m ((c : Thread nD τ).loc main_arg0)) (m ((c : Thread nD τ).loc main_arg1))
            (m ((c : Thread nD τ).loc main_arg2)) (m ((c : Thread nD τ).loc main_arg3))
            (m ((c : Thread nD τ).loc main_arg4)) (((cfg0.win 5).blk t).view.emb j) := by
    intro j
    obtain ⟨p, q, rfl⟩ : ∃ (p : Fin 128) (q : Fin 4096), j = ix2 p q := ⟨j 0, j 1, eq_ix2 j⟩
    rw [out_emb, result_apply]
    exact body_entry m c t p q
  funext j
  exact key j

/-- An index of the result is in point t's block iff each coordinate is in the block's range. -/
theorem mem_blk (t : Fin cfg0.N) (i : S8192x4096.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v4).slice (win0_5.rect t)).set ↔ _
  rw [View.set_slice_whole, Rect.mem_set_unit]
  exact Iff.rfl

/-- Every entry of the result is in the block of the point its row band belongs to. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hlt : (i 0).val / 128 < cfg0.N := by show _ < grid0.N; rw [N_0]; omega
  obtain ⟨t, ht⟩ : ∃ t : Fin cfg0.N, t.val = (i 0).val / 128 := ⟨⟨_, hlt⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 128 ≤ (i 0).val ∧ (i 0).val < win0_5.index t (0 : Fin 2) * 128 + 128
    rw [e0]; omega
  | ⟨1, _⟩ =>
    show win0_5.index t (1 : Fin 2) * 4096 ≤ (i 1).val ∧ (i 1).val < win0_5.index t (1 : Fin 2) * 4096 + 4096
    rw [e1]; omega

/-- The result array after the run is the layer of the argument arrays. -/
theorem final (c : Dev nD) :
    (dats m 0 c).arrAt 5 cfg0.N
      = result (m ((c : Thread nD τ).loc main_arg0)) (m ((c : Thread nD τ).loc main_arg1))
          (m ((c : Thread nD τ).loc main_arg2)) (m ((c : Thread nD τ).loc main_arg3))
          (m ((c : Thread nD τ).loc main_arg4)) :=
  (dats m 0 c).arrAt_eq_of_cover 5 _ (fun t _ => flushed_eq m c t) cover

/-- The kernel's run: it terminates with the result array at the layer of the arguments, the arguments unchanged. -/
theorem run : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1))
            (m ((c : Thread nD τ).loc main_arg2)) (m ((c : Thread nD τ).loc main_arg3))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.RefLayer.lean ====
/-
  The reference program computes the layer of Spec.lean.

  The reference is a chain of whole-array operations. Read at one index, each stage is the corresponding piece of the
  layer: the contraction plus the broadcast bias is one entry of the linear map; the sum over the last axis of the
  row cut into 32 groups of 128, divided by 128, is the group's mean; the difference from it the centred value; the
  same sum of the squared centred values, divided by 128, the variance; the centred value times the reciprocal root
  of the regularised variance the normalised value; and, back at the flat column q = 128 * g + l, the scale, the
  shift, the leaky rectifier and the doubling are pointwise.
-/
import proofs.«121388_j3556232921930_2_alg».proof.Proof.Gen.ReferenceIdeal.Read
import proofs.«121388_j3556232921930_2_alg».proof.Proof.Spec
import Idealize.ShloMosaic.Lib.ValueIdx
import Idealize.ShloMosaic.PureOps.Ideal.Laws

noncomputable section

namespace Cert.ReferenceIdeal.RefLayer

open Cert.ReferenceIdeal Cert.ReferenceIdeal.Read Cert.GroupNormLayer Idealize.ShloMosaic Idealize.ShloMosaic.ValueIdx

/-! ## The index maps of the layout operations, at an index given by its coordinates -/

/-- Group g, place l of row r is column 128 * g + l of row r: (r * 32 + g) * 128 + l = r * 4096 + (128 * g + l). -/
theorem idx_v4 (r : Fin 8192) (g : Fin 32) (l : Fin 128) : idx_main_v4 (ix3 r g l) = ix2 r (col g l) := by
  have hr := r.isLt; have hg := g.isLt; have hl := l.isLt
  funext a
  match a with
  | ⟨0, _⟩ => exact Fin.ext (by show ((r.val * 32 + g.val) * 128 + l.val) / 4096 = r.val; omega)
  | ⟨1, _⟩ => exact Fin.ext (by show ((r.val * 32 + g.val) * 128 + l.val) % 4096 = g.val * 128 + l.val; omega)

/-- Column q of row r is place q mod 128 of group q / 128 of row r. -/
theorem idx_v23 (r : Fin 8192) (q : Fin 4096) : idx_main_v23 (ix2 r q) = ix3 r (grp q) (lane q) := by
  have hr := r.isLt; have hq := q.isLt
  funext a
  match a with
  | ⟨0, _⟩ => exact Fin.ext (by show (r.val * 4096 + q.val) / 4096 = r.val; omega)
  | ⟨1, _⟩ => exact Fin.ext (by show (r.val * 4096 + q.val) / 128 % 32 = q.val / 128; omega)
  | ⟨2, _⟩ => exact Fin.ext (by show (r.val * 4096 + q.val) % 128 = q.val % 128; omega)

theorem lidx_v0 (r : Fin 8192) (c : Fin 4096) (k : Fin 2048) : lidx_main_v0 (ix2 r c) k = ix2 r k := by
  funext a; match a with | ⟨0, _⟩ => rfl | ⟨1, _⟩ => rfl

theorem ridx_v0 (r : Fin 8192) (c : Fin 4096) (k : Fin 2048) : ridx_main_v0 (ix2 r c) k = ix2 c k := by
  funext a; match a with | ⟨0, _⟩ => rfl | ⟨1, _⟩ => rfl

theorem idx_v1_v2 (r : Fin 8192) (c : Fin 4096) : idx_main_v1 (idx_main_v2 (ix2 r c)) = ix1 c := by
  funext a; match a with | ⟨0, _⟩ => rfl

theorem idx_v24_v25 (r : Fin 8192) (c : Fin 4096) : idx_main_v24 (idx_main_v25 (ix2 r c)) = ix1 c := by
  funext a; match a with | ⟨0, _⟩ => rfl

theorem idx_v27_v28 (r : Fin 8192) (c : Fin 4096) : idx_main_v27 (idx_main_v28 (ix2 r c)) = ix1 c := by
  funext a; match a with | ⟨0, _⟩ => rfl

theorem idx_v5_v6 (r : Fin 8192) (g : Fin 32) (u : Fin 1) (k : Fin 128) :
    idx_main_v5 (idx_main_v6 (ix3 r g u)) k = ix3 r g k := by
  funext a; match a with | ⟨0, _⟩ => rfl | ⟨1, _⟩ => rfl | ⟨2, _⟩ => rfl

theorem idx_v12_v13 (r : Fin 8192) (g : Fin 32) (u : Fin 1) (k : Fin 128) :
    idx_main_v12 (idx_main_v13 (ix3 r g u)) k = ix3 r g k := by
  funext a; match a with | ⟨0, _⟩ => rfl | ⟨1, _⟩ => rfl | ⟨2, _⟩ => rfl

theorem idx_v9 (r : Fin 8192) (g : Fin 32) (l : Fin 128) : idx_main_v9 (ix3 r g l) = ix3 r g (0 : Fin 1) := by
  funext a; match a with | ⟨0, _⟩ => rfl | ⟨1, _⟩ => rfl | ⟨2, _⟩ => rfl

theorem idx_v16 (r : Fin 8192) (g : Fin 32) (l : Fin 128) : idx_main_v16 (ix3 r g l) = ix3 r g (0 : Fin 1) := by
  funext a; match a with | ⟨0, _⟩ => rfl | ⟨1, _⟩ => rfl | ⟨2, _⟩ => rfl

theorem idx_v21 (r : Fin 8192) (g : Fin 32) (l : Fin 128) : idx_main_v21 (ix3 r g l) = ix3 r g (0 : Fin 1) := by
  funext a; match a with | ⟨0, _⟩ => rfl | ⟨1, _⟩ => rfl | ⟨2, _⟩ => rfl

/-! ## The stages, read at an index -/

section Stages

variable (x0 : (⟨S8192x2048, .f32⟩ : BufTy).Contents (Elt Ideal)) (x1 : (⟨S4096x2048, .f32⟩ : BufTy).Contents (Elt Ideal))
  (x2 x3 x4 : (⟨S4096, .f32⟩ : BufTy).Contents (Elt Ideal))

/-- The pre-activations of group g of row r, as the reference holds them after cutting the row into groups. -/
def pre (r : Fin 8192) (g : Fin 32) : Fin 128 → EReal := fun l => val_main_v4 (F := Ideal) x0 x1 x2 (ix3 r g l)

/-- The contraction plus the broadcast bias, cut into groups, is the linear map at column 128 * g + l. -/
theorem v4_eq (r : Fin 8192) (g : Fin 32) (l : Fin 128) :
    val_main_v4 (F := Ideal) x0 x1 x2 (ix3 r g l) = lin x0 x1 (fun c => x2 (ix1 c)) r (col g l) := by
  rw [val_main_v4_apply, idx_v4, val_main_v3_apply, val_main_v0_apply, val_main_v2_apply, val_main_v1_apply, idx_v1_v2]
  simp only [lidx_v0, ridx_v0]
  rfl

theorem pre_eq (r : Fin 8192) (g : Fin 32) : pre x0 x1 x2 r g = fun l => lin x0 x1 (fun c => x2 (ix1 c)) r (col g l) :=
  funext fun l => v4_eq x0 x1 x2 r g l

/-- The sum over the group from the zero word, over the word of 128, is the group's mean. -/
theorem v8_eq (r : Fin 8192) (g : Fin 32) (u : Fin 1) :
    val_main_v8 (F := Ideal) x0 x1 x2 (ix3 r g u) = mean (pre x0 x1 x2 r g) := by
  rw [val_main_v8_apply, val_main_v6_apply, val_main_v5_apply, val_main_v7_apply, val_main_cst_apply, val_main_cst_0_apply]
  simp only [idx_v5_v6]
  rw [Ideal.ofBits_def, Ideal.ofBits_zero_f32, zero_add]
  rfl

/-- Both differences from the broadcast mean are the centred value. -/
theorem v10_eq (r : Fin 8192) (g : Fin 32) (l : Fin 128) :
    val_main_v10 (F := Ideal) x0 x1 x2 (ix3 r g l) = centred (pre x0 x1 x2 r g) l := by
  rw [val_main_v10_apply, val_main_v9_apply, idx_v9, v8_eq]
  rfl

theorem v17_eq (r : Fin 8192) (g : Fin 32) (l : Fin 128) :
    val_main_v17 (F := Ideal) x0 x1 x2 (ix3 r g l) = centred (pre x0 x1 x2 r g) l := by
  rw [val_main_v17_apply, val_main_v16_apply, idx_v16, v8_eq]
  rfl

/-- The sum of the squared centred values from the zero word, over the word of 128, is the group's variance. -/
theorem v15_eq (r : Fin 8192) (g : Fin 32) (u : Fin 1) :
    val_main_v15 (F := Ideal) x0 x1 x2 (ix3 r g u) = variance (pre x0 x1 x2 r g) := by
  rw [val_main_v15_apply, val_main_v13_apply, val_main_v12_apply, val_main_v14_apply, val_main_cst_1_apply, val_main_cst_2_apply]
  simp only [idx_v12_v13, val_main_v11_apply, v10_eq]
  rw [Ideal.ofBits_def, Ideal.ofBits_zero_f32, zero_add]
  rfl

/-- The centred value times the reciprocal root of the regularised variance is the normalised value. -/
theorem v22_eq (r : Fin 8192) (g : Fin 32) (l : Fin 128) :
    val_main_v22 (F := Ideal) x0 x1 x2 (ix3 r g l) = normed (pre x0 x1 x2 r g) l := by
  rw [val_main_v22_apply, v17_eq, val_main_v21_apply, idx_v21, val_main_v20_apply, val_main_v19_apply, v15_eq,
    val_main_v18_apply, val_main_cst_3_apply]
  rfl

/-- Back at the flat column, the scale, the shift, the rectifier and the doubling are pointwise: the layer. -/
theorem v35_eq (r : Fin 8192) (q : Fin 4096) :
    val_main_v35 (F := Ideal) x0 x1 x2 x3 x4 (ix2 r q) = layer x0 x1 x2 x3 x4 r q := by
  rw [val_main_v35_apply, val_main_v34_apply, val_main_v31_apply, val_main_v33_apply, val_main_v29_apply,
    val_main_v26_apply, val_main_v23_apply, idx_v23, v22_eq, pre_eq, val_main_v25_apply, val_main_v24_apply, idx_v24_v25,
    val_main_v28_apply, val_main_v27_apply, idx_v27_v28, val_main_v30_apply, val_main_cst_4_apply,
    val_main_v32_apply, val_main_cst_5_apply]
  rfl

end Stages

/-- The reference's result is the layer at every entry. -/
theorem val_main_v35_eq_result (x0 : (⟨S8192x2048, .f32⟩ : BufTy).Contents (Elt Ideal)) (x1 : (⟨S4096x2048, .f32⟩ : BufTy).Contents (Elt Ideal)) (x2 x3 x4 : (⟨S4096, .f32⟩ : BufTy).Contents (Elt Ideal)) :
    Cert.ReferenceIdeal.Read.val_main_v35 (F := Ideal) x0 x1 x2 x3 x4 = Cert.GroupNormLayer.result x0 x1 x2 x3 x4 := by
  funext i
  rw [eq_ix2 i]
  exact v35_eq x0 x1 x2 x3 x4 (i 0) (i 1)

end Cert.ReferenceIdeal.RefLayer

end
-- ==== Proof.lean ====
/-
  A linear layer, a group normalisation over 32 groups of 128 channels, a leaky rectifier and a doubling, fused
  in one kernel over blocks of 128 rows, against the same layer written with whole-array operations.

  At the extended reals the two programs are the same arithmetic, operation for operation: the kernel's matrix
  product into a zero accumulator (its operands' change of format is the identity) and the reference's contraction
  are one sum; each group's mean and variance are sums over the group's 128 lanes divided by the same word of 128 (the
  reference's sums start from a zero, which adds nothing); the reciprocal square root, the three float literals, the
  comparison with zero and the selection are the same on both sides. No law beyond `0 + s = s` joins them, so the
  precondition (finite inputs) is never opened. What differs is the arrangement: the kernel computes 64 row bands,
  one per grid point, each from its band of x and the whole weight matrix.

  Spec.lean states the layer as one function of the argument arrays; KernelLayer.lean reads the kernel body's term
  at an entry of a block; Blocks.lean places the 64 blocks in the result array, over the generated frame run and
  its named output array; RefLayer.lean reads the reference's run, stage by stage, at an entry; here the five
  claims are assembled. The frames of the two kernel programs are the generated frame runs; the reference's frame
  is its generated run with the result dropped; the idealization rewrote nothing.
-/
import proofs.«121388_j3556232921930_2_alg».proof.Defs
import proofs.«121388_j3556232921930_2_alg».proof.Proof.Gen.Kernel
import proofs.«121388_j3556232921930_2_alg».proof.Proof.Gen.Kernel.Skeleton
import proofs.«121388_j3556232921930_2_alg».proof.Proof.Gen.Kernel.Launch
import proofs.«121388_j3556232921930_2_alg».proof.Proof.Gen.Kernel.Points
import proofs.«121388_j3556232921930_2_alg».proof.Proof.Gen.Kernel.Frame
import proofs.«121388_j3556232921930_2_alg».proof.Proof.Gen.KernelIdeal
import proofs.«121388_j3556232921930_2_alg».proof.Proof.Gen.KernelIdeal.Skeleton
import proofs.«121388_j3556232921930_2_alg».proof.Proof.Gen.KernelIdeal.Launch
import proofs.«121388_j3556232921930_2_alg».proof.Proof.Gen.KernelIdeal.Points
import proofs.«121388_j3556232921930_2_alg».proof.Proof.Gen.KernelIdeal.Frame
import proofs.«121388_j3556232921930_2_alg».proof.Proof.Gen.ReferenceIdeal
import proofs.«121388_j3556232921930_2_alg».proof.Proof.Gen.KernelIdeal.Value
import proofs.«121388_j3556232921930_2_alg».proof.Proof.Gen.ReferenceIdeal.Run
import proofs.«121388_j3556232921930_2_alg».proof.Proof.Gen.ReferenceIdeal.Read
import proofs.«121388_j3556232921930_2_alg».proof.Proof.Gen.Pre_finite_inputs
import proofs.«121388_j3556232921930_2_alg».proof.Proof.Blocks
import proofs.«121388_j3556232921930_2_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference's run, its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of their argument arrays, and the arguments agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefLayer.val_main_v35_eq_result,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
